-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64x32 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x64 .f32) (main_arg3 : FVec F S64 .f32) (main_arg4 : FVec F S64x32 .f32) (main_arg5 : FVec F S32 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 45
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x32, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S1600000x1, .f32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | .hbm, ⟨43, _⟩ => ⟨S1x32, .f32⟩
  | .hbm, ⟨44, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x32, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S1600000x1, .f32⟩
  | .hbm, ⟨42, _⟩ => ⟨S1600000x32, .f32⟩
  | .hbm, ⟨43, _⟩ => ⟨S1600000x32, .f32⟩
  | .hbm, ⟨44, _⟩ => ⟨S_, .f32⟩
  | .hbm, ⟨45, _⟩ => ⟨S100000x32, .f32⟩
  | .hbm, ⟨46, _⟩ => ⟨S1600000x1, .i32⟩
  | .hbm, ⟨47, _⟩ => ⟨S100000x32, .f32⟩
  | .hbm, ⟨48, _⟩ => ⟨S1x32, .f32⟩
  | .hbm, ⟨49, _⟩ => ⟨S100000x32, .f32⟩
  | .hbm, ⟨50, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's run with its RESULT named.

  @main is five segments: the first dense projection (a kernel region), the first sparse aggregation (a stretch of
  host operations), the fused bias + relu + second projection (a region), the second aggregation (a stretch), the
  final bias add (a region). The buffer contents at the boundaries are the fold `W0 … W5` of the generated frame
  module. The frame claim only keeps, of the last boundary, that the arguments are as launched; here the same run is
  read with one more fact kept: the result array `main_v30` ends at the last boundary's contents `W5`. What `W5`
  holds there, as a function of the arguments, is the business of the modules that import this one.
-/
import proofs.«154001_j86122684219473_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-regions run theorem's implicit arguments are found by unifying its conclusion with this statement, which
-- takes unfolding plain definitions in a metavariable's type
set_option backward.isDefEq.respectTransparency.types false in
/-- Every weakly fair execution of @main terminates, nothing faulting; the result array ends holding what the last
    boundary's contents `W5` hold at it, and every argument array ends as launched. The segments, the thread states
    and the launch are the frame's; the last thread state holds EVERY unscoped buffer at `W5`, and the result array
    is one of them. -/
theorem run_result : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.BodyAt.lean ====
/-
  What each kernel body stores, read at an index, on the extended reals.

  The three bodies store one value each. The first stores the product of its row block with the weight matrix, the
  second the product of `max (row block + bias row, 0)` with its weight matrix, the third its row block plus a bias
  row. On the extended reals a change of float format is the identity and a matrix product into a zero accumulator
  is the plain sum over the contracted axis, so at an index `(r, c)` the stored values are
      ∑ k, x (r, k) * w (k, c),      ∑ k, max (a (r, k) + b (0, k)) 0 * w (k, c),      a (r, c) + b (0, c).
  Every statement is over variables of the literal block types; the coordinates of each operand index are written out.
-/
import proofs.«154001_j86122684219473_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic

/-! ## The operand indices of the two matrix products

At output index `y = (r, c)` and contraction index `k` the left operand is read at `(r, k)` and the right at
`(k, c)`: the product has no batch axis, contracts the left operand's axis 1 with the right's axis 0. -/

theorem lhs0_row (y : S10000x64.Idx) (q : dot_S10000x128_S128x64_S10000x64_1_0_0_1_n_n.contr.Idx) : (dot_S10000x128_S128x64_S10000x64_1_0_0_1_n_n.lhsIdx y q 0).val = (y 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs0_contr (y : S10000x64.Idx) (q : dot_S10000x128_S128x64_S10000x64_1_0_0_1_n_n.contr.Idx) : (dot_S10000x128_S128x64_S10000x64_1_0_0_1_n_n.lhsIdx y q 1).val = (q ⟨0, by decide⟩).val :=
  dot_S10000x128_S128x64_S10000x64_1_0_0_1_n_n.lhsIdx_val_of_single rfl y q
theorem rhs0_contr (y : S10000x64.Idx) (q : dot_S10000x128_S128x64_S10000x64_1_0_0_1_n_n.contr.Idx) : (dot_S10000x128_S128x64_S10000x64_1_0_0_1_n_n.rhsIdx y q 0).val = (q ⟨0, by decide⟩).val :=
  dot_S10000x128_S128x64_S10000x64_1_0_0_1_n_n.rhsIdx_val_of_single rfl y q
theorem rhs0_col (y : S10000x64.Idx) (q : dot_S10000x128_S128x64_S10000x64_1_0_0_1_n_n.contr.Idx) : (dot_S10000x128_S128x64_S10000x64_1_0_0_1_n_n.rhsIdx y q 1).val = (y 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem lhs1_row (y : S10000x32.Idx) (q : dot_S10000x64_S64x32_S10000x32_1_0_0_1_n_n.contr.Idx) : (dot_S10000x64_S64x32_S10000x32_1_0_0_1_n_n.lhsIdx y q 0).val = (y 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs1_contr (y : S10000x32.Idx) (q : dot_S10000x64_S64x32_S10000x32_1_0_0_1_n_n.contr.Idx) : (dot_S10000x64_S64x32_S10000x32_1_0_0_1_n_n.lhsIdx y q 1).val = (q ⟨0, by decide⟩).val :=
  dot_S10000x64_S64x32_S10000x32_1_0_0_1_n_n.lhsIdx_val_of_single rfl y q
theorem rhs1_contr (y : S10000x32.Idx) (q : dot_S10000x64_S64x32_S10000x32_1_0_0_1_n_n.contr.Idx) : (dot_S10000x64_S64x32_S10000x32_1_0_0_1_n_n.rhsIdx y q 0).val = (q ⟨0, by decide⟩).val :=
  dot_S10000x64_S64x32_S10000x32_1_0_0_1_n_n.rhsIdx_val_of_single rfl y q
theorem rhs1_col (y : S10000x32.Idx) (q : dot_S10000x64_S64x32_S10000x32_1_0_0_1_n_n.contr.Idx) : (dot_S10000x64_S64x32_S10000x32_1_0_0_1_n_n.rhsIdx y q 1).val = (y 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Row `r` of the first product's left block at contraction index `k`. -/
abbrev left0 (y : S10000x64.Idx) (k : Fin 128) : S10000x128.Idx := fun a => match a with
  | ⟨0, _⟩ => ⟨(y 0).val, (y 0).isLt⟩
  | ⟨1, _⟩ => ⟨k.val, k.isLt⟩
/-- Column `c` of the first weight matrix at contraction index `k`. -/
abbrev right0 (y : S10000x64.Idx) (k : Fin 128) : S128x64.Idx := fun a => match a with
  | ⟨0, _⟩ => ⟨k.val, k.isLt⟩
  | ⟨1, _⟩ => ⟨(y 1).val, (y 1).isLt⟩
/-- Row `r` of the second product's left block at contraction index `k`. -/
abbrev left1 (y : S10000x32.Idx) (k : Fin 64) : S10000x64.Idx := fun a => match a with
  | ⟨0, _⟩ => ⟨(y 0).val, (y 0).isLt⟩
  | ⟨1, _⟩ => ⟨k.val, k.isLt⟩
/-- Column `c` of the second weight matrix at contraction index `k`. -/
abbrev right1 (y : S10000x32.Idx) (k : Fin 64) : S64x32.Idx := fun a => match a with
  | ⟨0, _⟩ => ⟨k.val, k.isLt⟩
  | ⟨1, _⟩ => ⟨(y 1).val, (y 1).isLt⟩
/-- Entry `k` of the first bias, kept as a row. -/
abbrev biasAt1 (k : Fin 64) : S1x64.Idx := fun a => match a with
  | ⟨0, _⟩ => ⟨0, Nat.one_pos⟩
  | ⟨1, _⟩ => ⟨k.val, k.isLt⟩
/-- Entry `c` of the second bias, kept as a row. -/
abbrev biasAt2 (y : S10000x32.Idx) : S1x32.Idx := fun a => match a with
  | ⟨0, _⟩ => ⟨0, Nat.one_pos⟩
  | ⟨1, _⟩ => ⟨(y 1).val, (y 1).isLt⟩

/-! ## The first projection -/

/-- The first body's stored value at `(r, c)`: the row block's row `r` against the weight matrix's column `c`. -/
theorem first_at (x0 : FVec Ideal S10000x128 .f32) (x1 : FVec Ideal S128x64 .f32) (y : S10000x64.Idx) :
    k0_pay1 (F := Ideal) x0 x1 y = ∑ k : Fin 128, x0 (left0 y k) * x1 (right0 y k) := by
  unfold k0_pay1
  refine (Ideal.matmul_constant_zero_apply (φ₁ := .bf16) (φ₂ := .bf16) dot_S10000x128_S128x64_S10000x64_1_0_0_1_n_n none
    (truncf .bf16 x0 bitsLt_bf16_f32) (truncf .bf16 x1 bitsLt_bf16_f32) y).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx y ((ValueIdx.contrEquiv1 dot_S10000x128_S128x64_S10000x64_1_0_0_1_n_n 128 rfl rfl).symm k) = left0 y k := funext fun a => Fin.ext (by
    match a with
    | ⟨0, _⟩ => exact lhs0_row _ _
    | ⟨1, _⟩ => exact (lhs0_contr _ _).trans hk)
  have er : dot_S10000x128_S128x64_S10000x64_1_0_0_1_n_n.rhsIdx y ((ValueIdx.contrEquiv1 dot_S10000x128_S128x64_S10000x64_1_0_0_1_n_n 128 rfl rfl).symm k) = right0 y k := funext fun a => Fin.ext (by
    match a with
    | ⟨0, _⟩ => exact (rhs0_contr _ _).trans hk
    | ⟨1, _⟩ => exact rhs0_col _ _)
  rw [el, er]
  rfl

/-! ## The bias row spread over the rows of a block -/

/-- The first bias row broadcast over the block's rows reads, at `(r, k)`, the bias's entry `k`. -/
theorem spread1_at (b : FVec Ideal S1x64 .f32) (y : S10000x32.Idx) (k : Fin 64) :
    broadcastTo S10000x64 b broadcasts_S1x64_S10000x64 (left1 y k) = b (biasAt1 k) :=
  broadcastTo_apply b broadcasts_S1x64_S10000x64 (left1 y k) (biasAt1 k) (fun a => match a with
    | ⟨0, _⟩ => by show 0 = if (1 : Nat) = 1 then 0 else (y 0).val; rw [if_pos rfl]
    | ⟨1, _⟩ => by show k.val = if (64 : Nat) = 1 then 0 else k.val; rw [if_neg (by decide)])

/-- The second bias row broadcast over the block's rows reads, at `(r, c)`, the bias's entry `c`. -/
theorem spread2_at (b : FVec Ideal S1x32 .f32) (y : S10000x32.Idx) :
    broadcastTo S10000x32 b broadcasts_S1x32_S10000x32 y = b (biasAt2 y) :=
  broadcastTo_apply b broadcasts_S1x32_S10000x32 y (biasAt2 y) (fun a => match a with
    | ⟨0, _⟩ => by show 0 = if (1 : Nat) = 1 then 0 else (y 0).val; rw [if_pos rfl]
    | ⟨1, _⟩ => by show (y 1).val = if (32 : Nat) = 1 then 0 else (y 1).val; rw [if_neg (by decide)])

/-! ## The fused bias, relu and second projection -/

/-- The second body's stored value at `(r, c)`: `max (a (r, k) + b k) 0` against the weight matrix's column `c`. -/
theorem second_at (x0 : FVec Ideal S10000x64 .f32) (x1 : FVec Ideal S1x64 .f32) (x2 : FVec Ideal S64x32 .f32) (y : S10000x32.Idx) :
    k1_pay1 (F := Ideal) x0 x1 x2 y
      = ∑ k : Fin 64, max (x0 (left1 y k) + x1 (biasAt1 k)) (Ideal.ofBits .f32 0x00000000#32) * x2 (right1 y k) := by
  unfold k1_pay1
  refine (Ideal.matmul_constant_zero_apply (φ₁ := .bf16) (φ₂ := .bf16) dot_S10000x64_S64x32_S10000x32_1_0_0_1_n_n none _
    (truncf .bf16 x2 bitsLt_bf16_f32) y).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx y ((ValueIdx.contrEquiv1 dot_S10000x64_S64x32_S10000x32_1_0_0_1_n_n 64 rfl rfl).symm k) = left1 y k := funext fun a => Fin.ext (by
    match a with
    | ⟨0, _⟩ => exact lhs1_row _ _
    | ⟨1, _⟩ => exact (lhs1_contr _ _).trans hk)
  have er : dot_S10000x64_S64x32_S10000x32_1_0_0_1_n_n.rhsIdx y ((ValueIdx.contrEquiv1 dot_S10000x64_S64x32_S10000x32_1_0_0_1_n_n 64 rfl rfl).symm k) = right1 y k := funext fun a => Fin.ext (by
    match a with
    | ⟨0, _⟩ => exact (rhs1_contr _ _).trans hk
    | ⟨1, _⟩ => exact rhs1_col _ _)
  rw [el, er]
  show max (shapeCast S10000x64 x0 shapeCasts_S10000x64_S10000x64 (left1 y k)
        + broadcastTo S10000x64 (shapeCast S1x64 x1 shapeCasts_S1x64_S1x64) broadcasts_S1x64_S10000x64 (left1 y k))
      (Ideal.ofBits .f32 0x00000000#32) * x2 (right1 y k) = _
  rw [shapeCast_self, shapeCast_self, spread1_at]

/-! ## The final bias add -/

/-- The third body's stored value at `(r, c)`: the block's entry plus the bias's entry `c`. -/
theorem third_at (x0 : FVec Ideal S10000x32 .f32) (x1 : FVec Ideal S1x32 .f32) (y : S10000x32.Idx) :
    k2_pay1 (F := Ideal) x0 x1 y = x0 y + x1 (biasAt2 y) := by
  unfold k2_pay1
  show shapeCast S10000x32 x0 shapeCasts_S10000x32_S10000x32 y
      + broadcastTo S10000x32 (shapeCast S1x32 x1 shapeCasts_S1x32_S1x32) broadcasts_S1x32_S10000x32 y = _
  rw [shapeCast_self, shapeCast_self, spread2_at]

end Cert.KernelIdeal.Body

end
-- ==== Proof.FirstArray.lean ====
/-
  The first projection's array after its region.

  The region's grid has ten points; point `t` fetches rows `10000 t … 10000 t + 9999` of the node features, the
  whole weight matrix, and writes back rows `10000 t … 10000 t + 9999` of the projection. So whatever the region
  finds in the features' array `x` and the weights' array `w`, it leaves in its output array the product of the two
  WHOLE arrays: entry `(r, c)` is `∑ k, x (r, k) * w (k, c)`, the block of point `r / 10000` covering row `r`.
  Stated at any contents `V` of the buffers at the region's entry.
-/
import proofs.«154001_j86122684219473_1_alg».proof.Proof.Gen.KernelIdeal.Frame
import proofs.«154001_j86122684219473_1_alg».proof.Proof.BodyAt
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.First

open Cert.KernelIdeal Cert.KernelIdeal.Gen Cert.KernelIdeal.Body

variable (V : (c : Dev nD) → (b : Ref sig .tc) → Buf (Elt Ideal) ((c : Thread nD τ).loc b))

theorem origin : (![0, 0] : Fin 2 → Nat) = fun _ => 0 := funext fun a => by fin_cases a <;> rfl

/-- Row `r` of the features at contraction index `k`. -/
abbrev rowOf (i : S100000x64.Idx) (k : Fin 128) : S100000x128.Idx := fun a => match a with
  | ⟨0, _⟩ => ⟨(i 0).val, (i 0).isLt⟩
  | ⟨1, _⟩ => ⟨k.val, k.isLt⟩
/-- Column `c` of the weights at contraction index `k`. -/
abbrev colOf (i : S100000x64.Idx) (k : Fin 128) : S128x64.Idx := fun a => match a with
  | ⟨0, _⟩ => ⟨k.val, k.isLt⟩
  | ⟨1, _⟩ => ⟨(i 1).val, (i 1).isLt⟩

/-- The product of the whole feature array with the weight matrix, entry by entry. -/
def product (x : FVec Ideal S100000x128 .f32) (w : FVec Ideal S128x64 .f32) : FVec Ideal S100000x64 .f32 :=
  fun i => ∑ k : Fin 128, x (rowOf i k) * w (colOf i k)

/-- The printed index maps over the grid: the features' and the output's block row is the point, every other block
    index is zero. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `10000 t …` of the features' array. -/
theorem rows_read (c : Dev nD) (t : Fin cfg0.N) (p : S10000x128.Idx) (q : S100000x128.Idx)
    (h0 : (q 0).val = t.val * 10000 + (p 0).val) (h1 : (q 1).val = (p 1).val) :
    iblk0 V c 0 t p = V c main_arg0 q := by
  obtain ⟨e0, e1, -⟩ := index_maps t
  unfold iblk0
  rw [View.read_apply]
  show V c main_arg0 _ = V c main_arg0 _
  congr 1
  funext a
  apply Fin.ext
  match a with
  | ⟨0, _⟩ => show win0_0.index t (0 : Fin 2) * 10000 + 1 * (p 0).val = (q 0).val; rw [e0, h0]; omega
  | ⟨1, _⟩ => show win0_0.index t (1 : Fin 2) * 128 + 1 * (p 1).val = (q 1).val; rw [e1, h1]; omega

/-- The weights' block at every point is the weights' whole array. -/
theorem weights_read (c : Dev nD) (t : Fin cfg0.N) (p : S128x64.Idx) (q : S128x64.Idx)
    (h0 : (q 0).val = (p 0).val) (h1 : (q 1).val = (p 1).val) :
    iblk0 V c 1 t p = V c main_arg2 q := by
  obtain ⟨-, -, e0, e1, -⟩ := index_maps t
  unfold iblk0
  rw [View.read_apply]
  show V c main_arg2 _ = V c main_arg2 _
  congr 1
  funext a
  apply Fin.ext
  match a with
  | ⟨0, _⟩ => show win0_1.index t (0 : Fin 2) * 128 + 1 * (p 0).val = (q 0).val; rw [e0, h0]; omega
  | ⟨1, _⟩ => show win0_1.index t (1 : Fin 2) * 64 + 1 * (p 1).val = (q 1).val; rw [e1, h1]; omega

/-- What point `t` writes back is block `t` of the product of the whole arrays. -/
theorem flushed (c : Dev nD) (t : Fin cfg0.N) :
    (dat0 V c).flushed 2 t = ((cfg0.win 2).blk t).view.read (Elt Ideal) (product (V c main_arg0) (V c main_arg2)) := by
  obtain ⟨-, -, -, -, e0, e1⟩ := index_maps t
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  funext j
  show k0_pay1 (iblk0 V c 0 t) (iblk0 V c 1 t) j
    = product (V c main_arg0) (V c main_arg2) (((cfg0.win 2).blk t).view.emb j)
  refine (first_at (iblk0 V c 0 t) (iblk0 V c 1 t) j).trans ?_
  unfold product
  refine Finset.sum_congr rfl fun k _ => ?_
  have hx : iblk0 V c 0 t (left0 j k) = V c main_arg0 (rowOf (((cfg0.win 2).blk t).view.emb j) k) :=
    rows_read V c t (left0 j k) (rowOf (((cfg0.win 2).blk t).view.emb j) k)
      (by show win0_2.index t (0 : Fin 2) * 10000 + 1 * (j 0).val = t.val * 10000 + (j 0).val; rw [e0]; omega) rfl
  have hw : iblk0 V c 1 t (right0 j k) = V c main_arg2 (colOf (((cfg0.win 2).blk t).view.emb j) k) :=
    weights_read V c t (right0 j k) (colOf (((cfg0.win 2).blk t).view.emb j) k) rfl
      (by show win0_2.index t (1 : Fin 2) * 64 + 1 * (j 1).val = (j 1).val; rw [e1]; omega)
  exact congrArg₂ (· * ·) hx hw

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Every index of the output array is in the block of the point its row falls in. -/
theorem covered (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e0, e1⟩ := index_maps t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 64 ≤ (i 1).val ∧ (i 1).val < win0_2.index t (1 : Fin 2) * 64 + 64
    rw [e1]; omega

/-- The output array after the region: the product of the features' and the weights' arrays as the region found them. -/
theorem array (c : Dev nD) : (dat0 V c).arrAt 2 cfg0.N = product (V c main_arg0) (V c main_arg2) :=
  (dat0 V c).arrAt_eq_of_cover 2 (product (V c main_arg0) (V c main_arg2)) (fun t _ => flushed V c t)
    (fun i => covered i)

end Cert.KernelIdeal.First

end
-- ==== Proof.SecondArray.lean ====
/-
  The second projection's array after its region.

  Point `t` of the region's ten fetches rows `10000 t … 10000 t + 9999` of the aggregated hidden features `a`, the
  first bias kept as a row `b`, the whole second weight matrix `w`, and writes back the same rows of the output.
  So whatever the region finds in those three arrays, it leaves in its output array, at `(r, c)`,
      ∑ k, max (a (r, k) + b (0, k)) 0 * w (k, c)
  — the bias added, the relu, and the product with the whole weight matrix — the block of point `r / 10000`
  covering row `r`. Stated at any contents `V` of the buffers at the region's entry.
-/
import proofs.«154001_j86122684219473_1_alg».proof.Proof.Gen.KernelIdeal.Frame
import proofs.«154001_j86122684219473_1_alg».proof.Proof.BodyAt
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Second

open Cert.KernelIdeal Cert.KernelIdeal.Gen Cert.KernelIdeal.Body

variable (V : (c : Dev nD) → (b : Ref sig .tc) → Buf (Elt Ideal) ((c : Thread nD τ).loc b))

theorem origin : (![0, 0] : Fin 2 → Nat) = fun _ => 0 := funext fun a => by fin_cases a <;> rfl

/-- Row `r` of the hidden features at contraction index `k`. -/
abbrev rowOf (i : S100000x32.Idx) (k : Fin 64) : S100000x64.Idx := fun a => match a with
  | ⟨0, _⟩ => ⟨(i 0).val, (i 0).isLt⟩
  | ⟨1, _⟩ => ⟨k.val, k.isLt⟩
/-- Column `c` of the weights at contraction index `k`. -/
abbrev colOf (i : S100000x32.Idx) (k : Fin 64) : S64x32.Idx := fun a => match a with
  | ⟨0, _⟩ => ⟨k.val, k.isLt⟩
  | ⟨1, _⟩ => ⟨(i 1).val, (i 1).isLt⟩

/-- Bias, relu and the product with the weight matrix, of the whole arrays, entry by entry. -/
def layer (a : FVec Ideal S100000x64 .f32) (b : FVec Ideal S1x64 .f32) (w : FVec Ideal S64x32 .f32) : FVec Ideal S100000x32 .f32 :=
  fun i => ∑ k : Fin 64, max (a (rowOf i k) + b (biasAt1 k)) (Ideal.ofBits .f32 0x00000000#32) * w (colOf i k)

/-- The printed index maps over the grid: the hidden features' and the output's block row is the point, every other
    block index is zero. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The hidden features' block at point `t` is rows `10000 t …` of their array. -/
theorem rows_read (c : Dev nD) (t : Fin cfg1.N) (p : S10000x64.Idx) (q : S100000x64.Idx)
    (h0 : (q 0).val = t.val * 10000 + (p 0).val) (h1 : (q 1).val = (p 1).val) :
    iblk1 V c 0 t p = V c main_v13 q := by
  obtain ⟨e0, e1, -⟩ := index_maps t
  unfold iblk1
  rw [View.read_apply]
  show V c main_v13 _ = V c main_v13 _
  congr 1
  funext a
  apply Fin.ext
  match a with
  | ⟨0, _⟩ => show win1_0.index t (0 : Fin 2) * 10000 + 1 * (p 0).val = (q 0).val; rw [e0, h0]; omega
  | ⟨1, _⟩ => show win1_0.index t (1 : Fin 2) * 64 + 1 * (p 1).val = (q 1).val; rw [e1, h1]; omega

/-- The bias row's block at every point is the bias row. -/
theorem bias_read (c : Dev nD) (t : Fin cfg1.N) (p : S1x64.Idx) :
    iblk1 V c 1 t p = V c main_v14 p := by
  obtain ⟨-, -, e0, e1, -⟩ := index_maps t
  unfold iblk1
  rw [View.read_apply]
  show V c main_v14 _ = V c main_v14 _
  congr 1
  funext a
  apply Fin.ext
  match a with
  | ⟨0, _⟩ => show win1_1.index t (0 : Fin 2) * 1 + 1 * (p 0).val = (p 0).val; rw [e0]; omega
  | ⟨1, _⟩ => show win1_1.index t (1 : Fin 2) * 64 + 1 * (p 1).val = (p 1).val; rw [e1]; omega

/-- The weights' block at every point is the weights' whole array. -/
theorem weights_read (c : Dev nD) (t : Fin cfg1.N) (p : S64x32.Idx) (q : S64x32.Idx)
    (h0 : (q 0).val = (p 0).val) (h1 : (q 1).val = (p 1).val) :
    iblk1 V c 2 t p = V c main_arg4 q := by
  obtain ⟨-, -, -, -, e0, e1, -⟩ := index_maps t
  unfold iblk1
  rw [View.read_apply]
  show V c main_arg4 _ = V c main_arg4 _
  congr 1
  funext a
  apply Fin.ext
  match a with
  | ⟨0, _⟩ => show win1_2.index t (0 : Fin 2) * 64 + 1 * (p 0).val = (q 0).val; rw [e0, h0]; omega
  | ⟨1, _⟩ => show win1_2.index t (1 : Fin 2) * 32 + 1 * (p 1).val = (q 1).val; rw [e1, h1]; omega

/-- What point `t` writes back is block `t` of `layer` of the whole arrays. -/
theorem flushed (c : Dev nD) (t : Fin cfg1.N) :
    (dat1 V c).flushed 3 t
      = ((cfg1.win 3).blk t).view.read (Elt Ideal) (layer (V c main_v13) (V c main_v14) (V c main_arg4)) := by
  obtain ⟨-, -, -, -, -, -, e0, e1⟩ := index_maps t
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin,
    View.ld_unit_zero (S := S64x32) origin]
  funext j
  show k1_pay1 (iblk1 V c 0 t) (iblk1 V c 1 t) (iblk1 V c 2 t) j
    = layer (V c main_v13) (V c main_v14) (V c main_arg4) (((cfg1.win 3).blk t).view.emb j)
  refine (second_at (iblk1 V c 0 t) (iblk1 V c 1 t) (iblk1 V c 2 t) j).trans ?_
  unfold layer
  refine Finset.sum_congr rfl fun k _ => ?_
  have ha : iblk1 V c 0 t (left1 j k) = V c main_v13 (rowOf (((cfg1.win 3).blk t).view.emb j) k) :=
    rows_read V c t (left1 j k) (rowOf (((cfg1.win 3).blk t).view.emb j) k)
      (by show win1_3.index t (0 : Fin 2) * 10000 + 1 * (j 0).val = t.val * 10000 + (j 0).val; rw [e0]; omega) rfl
  have hb : iblk1 V c 1 t (biasAt1 k) = V c main_v14 (biasAt1 k) := bias_read V c t (biasAt1 k)
  have hw : iblk1 V c 2 t (right1 j k) = V c main_arg4 (colOf (((cfg1.win 3).blk t).view.emb j) k) :=
    weights_read V c t (right1 j k) (colOf (((cfg1.win 3).blk t).view.emb j) k) rfl
      (by show win1_3.index t (1 : Fin 2) * 32 + 1 * (j 1).val = (j 1).val; rw [e1]; omega)
  exact congrArg₂ (· * ·) (congrArg (max · (Ideal.ofBits .f32 0x00000000#32)) (congrArg₂ (· + ·) ha hb)) hw

/-- An index of the output array is in point `t`'s block iff each coordinate is in the block's range on its axis. -/
theorem mem_block (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v15).slice (win1_3.rect t)).set ↔ _
  rw [View.set_slice_whole, Rect.mem_set_unit]
  exact Iff.rfl

/-- Every index of the output array is in the block of the point its row falls in. -/
theorem covered (i : S100000x32.Idx) :
    ∃ t : Fin cfg1.N, (cfg1.win 3).flush t = true ∧ i ∈ ((cfg1.win 3).blk t).view.set := by
  have h0 : (i 0).val < 100000 := (i 0).isLt
  have h1 : (i 1).val < 32 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, e0, e1⟩ := index_maps t
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 32 ≤ (i 1).val ∧ (i 1).val < win1_3.index t (1 : Fin 2) * 32 + 32
    rw [e1]; omega

/-- The output array after the region: `layer` of the three arrays as the region found them. -/
theorem array (c : Dev nD) :
    (dat1 V c).arrAt 3 cfg1.N = layer (V c main_v13) (V c main_v14) (V c main_arg4) :=
  (dat1 V c).arrAt_eq_of_cover 3 (layer (V c main_v13) (V c main_v14) (V c main_arg4)) (fun t _ => flushed V c t)
    (fun i => covered i)

end Cert.KernelIdeal.Second

end
-- ==== Proof.ThirdArray.lean ====
/-
  The result array after the last region.

  Point `t` of the region's ten fetches rows `10000 t … 10000 t + 9999` of the second aggregation `a` and the second
  bias kept as a row `b`, and writes back the same rows of the result. So whatever the region finds in those two
  arrays, it leaves in the result array, at `(r, c)`, `a (r, c) + b (0, c)`, the block of point `r / 10000`
  covering row `r`. Stated at any contents `V` of the buffers at the region's entry.
-/
import proofs.«154001_j86122684219473_1_alg».proof.Proof.Gen.KernelIdeal.Frame
import proofs.«154001_j86122684219473_1_alg».proof.Proof.BodyAt
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Third

open Cert.KernelIdeal Cert.KernelIdeal.Gen Cert.KernelIdeal.Body

variable (V : (c : Dev nD) → (b : Ref sig .tc) → Buf (Elt Ideal) ((c : Thread nD τ).loc b))

theorem origin : (![0, 0] : Fin 2 → Nat) = fun _ => 0 := funext fun a => by fin_cases a <;> rfl

/-- The bias row's entry under column `c` of the result. -/
abbrev biasOf (i : S100000x32.Idx) : S1x32.Idx := fun a => match a with
  | ⟨0, _⟩ => ⟨0, Nat.one_pos⟩
  | ⟨1, _⟩ => ⟨(i 1).val, (i 1).isLt⟩

/-- The bias row added to every row of the whole array, entry by entry. -/
def shifted (a : FVec Ideal S100000x32 .f32) (b : FVec Ideal S1x32 .f32) : FVec Ideal S100000x32 .f32 :=
  fun i => a i + b (biasOf i)

/-- The printed index maps over the grid: the aggregation's and the result's block row is the point, every other
    block index is zero. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The aggregation's block at point `t` is rows `10000 t …` of its array. -/
theorem rows_read (c : Dev nD) (t : Fin cfg2.N) (p : S10000x32.Idx) (q : S100000x32.Idx)
    (h0 : (q 0).val = t.val * 10000 + (p 0).val) (h1 : (q 1).val = (p 1).val) :
    iblk2 V c 0 t p = V c main_v28 q := by
  obtain ⟨e0, e1, -⟩ := index_maps t
  unfold iblk2
  rw [View.read_apply]
  show V c main_v28 _ = V c main_v28 _
  congr 1
  funext a
  apply Fin.ext
  match a with
  | ⟨0, _⟩ => show win2_0.index t (0 : Fin 2) * 10000 + 1 * (p 0).val = (q 0).val; rw [e0, h0]; omega
  | ⟨1, _⟩ => show win2_0.index t (1 : Fin 2) * 32 + 1 * (p 1).val = (q 1).val; rw [e1, h1]; omega

/-- The bias row's block at every point is the bias row. -/
theorem bias_read (c : Dev nD) (t : Fin cfg2.N) (p : S1x32.Idx) (q : S1x32.Idx)
    (h0 : (q 0).val = (p 0).val) (h1 : (q 1).val = (p 1).val) :
    iblk2 V c 1 t p = V c main_v29 q := by
  obtain ⟨-, -, e0, e1, -⟩ := index_maps t
  unfold iblk2
  rw [View.read_apply]
  show V c main_v29 _ = V c main_v29 _
  congr 1
  funext a
  apply Fin.ext
  match a with
  | ⟨0, _⟩ => show win2_1.index t (0 : Fin 2) * 1 + 1 * (p 0).val = (q 0).val; rw [e0, h0]; omega
  | ⟨1, _⟩ => show win2_1.index t (1 : Fin 2) * 32 + 1 * (p 1).val = (q 1).val; rw [e1, h1]; omega

/-- What point `t` writes back is block `t` of `shifted` of the whole arrays. -/
theorem flushed (c : Dev nD) (t : Fin cfg2.N) :
    (dat2 V c).flushed 2 t = ((cfg2.win 2).blk t).view.read (Elt Ideal) (shifted (V c main_v28) (V c main_v29)) := by
  obtain ⟨-, -, -, -, e0, e1⟩ := index_maps t
  show (cfg2.win 2).cut (grid2.coords t) ((dat2 V c).after 2 t) = _
  rw [after2_2]
  unfold out2_2
  rw [View.canon_unit_zero origin]
  simp only [View.ld_unit_zero (S := S10000x32) origin, View.ld_unit_zero (S := S1x32) origin]
  funext j
  show k2_pay1 (iblk2 V c 0 t) (iblk2 V c 1 t) j
    = shifted (V c main_v28) (V c main_v29) (((cfg2.win 2).blk t).view.emb j)
  refine (third_at (iblk2 V c 0 t) (iblk2 V c 1 t) j).trans ?_
  unfold shifted
  have ha : iblk2 V c 0 t j = V c main_v28 (((cfg2.win 2).blk t).view.emb j) :=
    rows_read V c t j (((cfg2.win 2).blk t).view.emb j)
      (by show win2_2.index t (0 : Fin 2) * 10000 + 1 * (j 0).val = t.val * 10000 + (j 0).val; rw [e0]; omega)
      (by show win2_2.index t (1 : Fin 2) * 32 + 1 * (j 1).val = (j 1).val; rw [e1]; omega)
  have hb : iblk2 V c 1 t (biasAt2 j) = V c main_v29 (biasOf (((cfg2.win 2).blk t).view.emb j)) :=
    bias_read V c t (biasAt2 j) (biasOf (((cfg2.win 2).blk t).view.emb j)) rfl
      (by show win2_2.index t (1 : Fin 2) * 32 + 1 * (j 1).val = (j 1).val; rw [e1]; omega)
  exact congrArg₂ (· + ·) ha hb

/-- An index of the result array is in point `t`'s block iff each coordinate is in the block's range on its axis. -/
theorem mem_block (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v30).slice (win2_2.rect t)).set ↔ _
  rw [View.set_slice_whole, Rect.mem_set_unit]
  exact Iff.rfl

/-- Every index of the result array is in the block of the point its row falls in. -/
theorem covered (i : S100000x32.Idx) :
    ∃ t : Fin cfg2.N, (cfg2.win 2).flush t = true ∧ i ∈ ((cfg2.win 2).blk t).view.set := by
  have h0 : (i 0).val < 100000 := (i 0).isLt
  have h1 : (i 1).val < 32 := (i 1).isLt
  obtain ⟨t, ht⟩ : ∃ t : Fin cfg2.N, t.val = (i 0).val / 10000 :=
    ⟨⟨(i 0).val / 10000, by rw [show cfg2.N = 10 from N_2]; omega⟩, rfl⟩
  obtain ⟨-, -, -, -, e0, e1⟩ := index_maps t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    rw [e0, ht]; omega
  | ⟨1, _⟩ =>
    show win2_2.index t (1 : Fin 2) * 32 ≤ (i 1).val ∧ (i 1).val < win2_2.index t (1 : Fin 2) * 32 + 32
    rw [e1]; omega

/-- The result array after the region: `shifted` of the two arrays as the region found them. -/
theorem array (c : Dev nD) : (dat2 V c).arrAt 2 cfg2.N = shifted (V c main_v28) (V c main_v29) :=
  (dat2 V c).arrAt_eq_of_cover 2 (shifted (V c main_v28) (V c main_v29)) (fun t _ => flushed V c t)
    (fun i => covered i)

end Cert.KernelIdeal.Third

end
-- ==== Proof.FirstStretch.lean ====
/-
  The host operations between the first and the second region.

  They compute, from the first projection, the first sparse aggregation, and reshape the first bias to a row.
  Read at ANY contents `W` of the buffers before the stretch: the aggregation's buffer ends at `aggregate64` of the
  edge weights, the edge endpoints and the projection as `W` has them; the bias row's buffer at the bias reshaped;
  the arguments the later regions and stretches read are not written.
-/
import proofs.«154001_j86122684219473_1_alg».proof.Proof.Gen.KernelIdeal.Launch
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The sparse aggregation at feature width 64: row `dst e` of the result accumulates, over the edges `e`, row `src e` of `dense`
    scaled by `vals e` — spelt as the host operations spell it (a negative source index is first wrapped by the
    number of nodes; the rows are gathered, scaled by the edge weights spread along the feature axis, and added into a
    zero array at the destination rows). It is the same function in the kernel's program and in the reference, and
    nothing below opens it. -/
def aggregate64 (vals : (⟨S1600000, .f32⟩ : BufTy).Contents (Elt F)) (src dst : (⟨S1600000, .i32⟩ : BufTy).Contents (Elt F))
    (dense : (⟨S100000x64, .f32⟩ : BufTy).Contents (Elt F)) : (⟨S100000x64, .f32⟩ : BufTy).Contents (Elt F) :=
  Host.scatterAdd (F := F) scatter_S100000x64_S1600000x1_S1600000x64_1_0_0_1
      (broadcastInDim S100000x64 ![] bcast_S_S100000x64 (constant (F := F) S_ .f32 0x00000000#32))
      (broadcastInDim S1600000x1 ![0] bcast_S1600000_S1600000x1_0 dst)
      (mulf (F := F)
        (Host.gather gather_S100000x64_S1600000x1_S1600000x64_1_0_n_n_0_1_164 dense
          (broadcastInDim S1600000x1 ![0] bcast_S1600000_S1600000x1_0
            (select
              (cmpi CmpIPredicate.slt src (broadcastInDim S1600000 ![] bcast_S_S1600000 (constantI S_ 32 0#32)))
              (addi src (broadcastInDim S1600000 ![] bcast_S_S1600000 (constantI S_ 32 100000#32)))
              src)))
        (broadcastInDim S1600000x64 ![0, 1] bcast_S1600000x1_S1600000x64_0_1
          (broadcastInDim S1600000x1 ![0] bcast_S1600000_S1600000x1_0 vals)))

/-- After the stretch the aggregation's buffer holds `aggregate64` of what `W` holds. -/
theorem stretch1_aggregates (W : Valuation τ sig (Elt F)) :
    StableHlo.after (hostOps1 (F := F)) W (Proc.devRef .tc main_v13)
      = aggregate64 (W (Proc.devRef .tc main_arg1)) (W (Proc.devRef .tc main_arg6)) (W (Proc.devRef .tc main_arg7))
          (W (Proc.devRef .tc main_v0)) := by
  after_results
  rfl

/-- After the stretch the bias row's buffer holds the first bias as a `[1, 64]` array. -/
theorem stretch1_bias_row (W : Valuation τ sig (Elt F)) :
    StableHlo.after (hostOps1 (F := F)) W (Proc.devRef .tc main_v14)
      = shapeCast S1x64 (W (Proc.devRef .tc main_arg3)) shapeCasts_S64_S1x64 := by
  after_results
  rfl

/-- The stretch does not write `main_arg1`. -/
theorem stretch1_keeps_main_arg1 (W : Valuation τ sig (Elt F)) :
    StableHlo.after (hostOps1 (F := F)) W (Proc.devRef .tc main_arg1) = W (Proc.devRef .tc main_arg1) := by
  after_results

/-- The stretch does not write `main_arg4`. -/
theorem stretch1_keeps_main_arg4 (W : Valuation τ sig (Elt F)) :
    StableHlo.after (hostOps1 (F := F)) W (Proc.devRef .tc main_arg4) = W (Proc.devRef .tc main_arg4) := by
  after_results

/-- The stretch does not write `main_arg5`. -/
theorem stretch1_keeps_main_arg5 (W : Valuation τ sig (Elt F)) :
    StableHlo.after (hostOps1 (F := F)) W (Proc.devRef .tc main_arg5) = W (Proc.devRef .tc main_arg5) := by
  after_results

/-- The stretch does not write `main_arg6`. -/
theorem stretch1_keeps_main_arg6 (W : Valuation τ sig (Elt F)) :
    StableHlo.after (hostOps1 (F := F)) W (Proc.devRef .tc main_arg6) = W (Proc.devRef .tc main_arg6) := by
  after_results

/-- The stretch does not write `main_arg7`. -/
theorem stretch1_keeps_main_arg7 (W : Valuation τ sig (Elt F)) :
    StableHlo.after (hostOps1 (F := F)) W (Proc.devRef .tc main_arg7) = W (Proc.devRef .tc main_arg7) := by
  after_results

end Cert.KernelIdeal.Host

end
-- ==== Proof.SecondStretch.lean ====
/-
  The host operations between the second and the third region.

  They compute, from the second projection, the second sparse aggregation, and reshape the second bias to a row.
  Read at ANY contents `W` of the buffers before the stretch: the aggregation's buffer ends at `aggregate32` of the
  edge weights, the edge endpoints and the projection as `W` has them; the bias row's buffer at the bias reshaped.
-/
import proofs.«154001_j86122684219473_1_alg».proof.Proof.Gen.KernelIdeal.Launch
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The sparse aggregation at feature width 32: row `dst e` of the result accumulates, over the edges `e`, row `src e` of `dense`
    scaled by `vals e` — spelt as the host operations spell it (a negative source index is first wrapped by the
    number of nodes; the rows are gathered, scaled by the edge weights spread along the feature axis, and added into a
    zero array at the destination rows). It is the same function in the kernel's program and in the reference, and
    nothing below opens it. -/
def aggregate32 (vals : (⟨S1600000, .f32⟩ : BufTy).Contents (Elt F)) (src dst : (⟨S1600000, .i32⟩ : BufTy).Contents (Elt F))
    (dense : (⟨S100000x32, .f32⟩ : BufTy).Contents (Elt F)) : (⟨S100000x32, .f32⟩ : BufTy).Contents (Elt F) :=
  Host.scatterAdd (F := F) scatter_S100000x32_S1600000x1_S1600000x32_1_0_0_1
      (broadcastInDim S100000x32 ![] bcast_S_S100000x32 (constant (F := F) S_ .f32 0x00000000#32))
      (broadcastInDim S1600000x1 ![0] bcast_S1600000_S1600000x1_0 dst)
      (mulf (F := F)
        (Host.gather gather_S100000x32_S1600000x1_S1600000x32_1_0_n_n_0_1_132 dense
          (broadcastInDim S1600000x1 ![0] bcast_S1600000_S1600000x1_0
            (select
              (cmpi CmpIPredicate.slt src (broadcastInDim S1600000 ![] bcast_S_S1600000 (constantI S_ 32 0#32)))
              (addi src (broadcastInDim S1600000 ![] bcast_S_S1600000 (constantI S_ 32 100000#32)))
              src)))
        (broadcastInDim S1600000x32 ![0, 1] bcast_S1600000x1_S1600000x32_0_1
          (broadcastInDim S1600000x1 ![0] bcast_S1600000_S1600000x1_0 vals)))

/-- After the stretch the aggregation's buffer holds `aggregate32` of what `W` holds. -/
theorem stretch2_aggregates (W : Valuation τ sig (Elt F)) :
    StableHlo.after (hostOps2 (F := F)) W (Proc.devRef .tc main_v28)
      = aggregate32 (W (Proc.devRef .tc main_arg1)) (W (Proc.devRef .tc main_arg6)) (W (Proc.devRef .tc main_arg7))
          (W (Proc.devRef .tc main_v15)) := by
  after_results
  rfl

/-- After the stretch the bias row's buffer holds the second bias as a `[1, 32]` array. -/
theorem stretch2_bias_row (W : Valuation τ sig (Elt F)) :
    StableHlo.after (hostOps2 (F := F)) W (Proc.devRef .tc main_v29)
      = shapeCast S1x32 (W (Proc.devRef .tc main_arg5)) shapeCasts_S32_S1x32 := by
  after_results
  rfl

end Cert.KernelIdeal.Host

end
-- ==== Proof.Result.lean ====
/-
  The idealized kernel's result as ONE function of its arguments.

  Walking the boundaries of @main backwards from the result array: the last region adds the second bias to the
  second aggregation; the stretch before it aggregates the second projection; the region before that adds the first
  bias to the first aggregation, applies the relu and projects; the stretch before it aggregates the first
  projection; the first region projects the node features. No argument is written on the way, so every array a
  region or a stretch reads walks back to the launch memory. Hence the result array ends at

      value x vals w1 b1 w2 b2 src dst
        = (aggregate32 vals src dst (layer (aggregate64 vals src dst (x · w1)) b1 w2)) + b2   (the biases as rows).
-/
import proofs.«154001_j86122684219473_1_alg».proof.Proof.Gen.KernelIdeal.Frame
import proofs.«154001_j86122684219473_1_alg».proof.Proof.FirstArray
import proofs.«154001_j86122684219473_1_alg».proof.Proof.SecondArray
import proofs.«154001_j86122684219473_1_alg».proof.Proof.ThirdArray
import proofs.«154001_j86122684219473_1_alg».proof.Proof.FirstStretch
import proofs.«154001_j86122684219473_1_alg».proof.Proof.SecondStretch

set_option maxRecDepth 16384

noncomputable section

open Idealize.ShloMosaic Idealize.ShloMosaic.TcCoe Idealize.SL.Sem

namespace Cert.KernelIdeal.Result

open Cert.KernelIdeal Cert.KernelIdeal.Gen Cert.KernelIdeal.Host

/-- The two graph-convolution layers on the extended reals: project, aggregate over the edges, add the bias, relu,
    project, aggregate, add the bias. -/
def value (x : FVec Ideal S100000x128 .f32) (vals : FVec Ideal S1600000 .f32) (w1 : FVec Ideal S128x64 .f32)
    (b1 : FVec Ideal S64 .f32) (w2 : FVec Ideal S64x32 .f32) (b2 : FVec Ideal S32 .f32)
    (src dst : (⟨S1600000, .i32⟩ : BufTy).Contents (Elt Ideal)) : FVec Ideal S100000x32 .f32 :=
  Third.shifted
    (aggregate32 vals src dst
      (Second.layer (aggregate64 vals src dst (First.product x w1)) (shapeCast S1x64 b1 shapeCasts_S64_S1x64) w2))
    (shapeCast S1x32 b2 shapeCasts_S32_S1x32)

variable (m : (ℓ : Loc nD τ sig) → Buf (Elt Ideal) ℓ) (ρ : Dev nD → PrngReg)

/-! ## After the first region -/

/-- The first region leaves the product of the node features with the first weight matrix. -/
theorem after_first (c : Dev nD) :
    W1 m ρ c (Proc.devRef .tc main_v0) = First.product (m ((c : Thread nD τ).loc main_arg0)) (m ((c : Thread nD τ).loc main_arg2)) :=
  (W1_arr m ρ c 2).trans (First.array (V0 m ρ) c)

theorem first_keeps_arg1 (c : Dev nD) : W1 m ρ c (Proc.devRef .tc main_arg1) = m ((c : Thread nD τ).loc main_arg1) :=
  (W1_of_ne m ρ c main_arg1 (by decide)).trans rfl
theorem first_keeps_arg3 (c : Dev nD) : W1 m ρ c (Proc.devRef .tc main_arg3) = m ((c : Thread nD τ).loc main_arg3) :=
  (W1_of_ne m ρ c main_arg3 (by decide)).trans rfl
theorem first_keeps_arg4 (c : Dev nD) : W1 m ρ c (Proc.devRef .tc main_arg4) = m ((c : Thread nD τ).loc main_arg4) :=
  (W1_of_ne m ρ c main_arg4 (by decide)).trans rfl
theorem first_keeps_arg5 (c : Dev nD) : W1 m ρ c (Proc.devRef .tc main_arg5) = m ((c : Thread nD τ).loc main_arg5) :=
  (W1_of_ne m ρ c main_arg5 (by decide)).trans rfl
theorem first_keeps_arg6 (c : Dev nD) : W1 m ρ c (Proc.devRef .tc main_arg6) = m ((c : Thread nD τ).loc main_arg6) :=
  (W1_of_ne m ρ c main_arg6 (by decide)).trans rfl
theorem first_keeps_arg7 (c : Dev nD) : W1 m ρ c (Proc.devRef .tc main_arg7) = m ((c : Thread nD τ).loc main_arg7) :=
  (W1_of_ne m ρ c main_arg7 (by decide)).trans rfl

/-! ## What the second region finds -/

theorem second_finds_aggregate (c : Dev nD) :
    V2 m ρ c main_v13 = aggregate64 (m ((c : Thread nD τ).loc main_arg1)) (m ((c : Thread nD τ).loc main_arg6)) (m ((c : Thread nD τ).loc main_arg7)) (First.product (m ((c : Thread nD τ).loc main_arg0)) (m ((c : Thread nD τ).loc main_arg2))) := by
  show StableHlo.after hostOps1 (W1 m ρ c) (Proc.devRef .tc main_v13) = _
  rw [stretch1_aggregates, first_keeps_arg1, first_keeps_arg6, first_keeps_arg7, after_first]

theorem second_finds_bias (c : Dev nD) :
    V2 m ρ c main_v14 = shapeCast S1x64 (m ((c : Thread nD τ).loc main_arg3)) shapeCasts_S64_S1x64 := by
  show StableHlo.after hostOps1 (W1 m ρ c) (Proc.devRef .tc main_v14) = _
  rw [stretch1_bias_row, first_keeps_arg3]

theorem second_finds_weights (c : Dev nD) : V2 m ρ c main_arg4 = m ((c : Thread nD τ).loc main_arg4) := by
  show StableHlo.after hostOps1 (W1 m ρ c) (Proc.devRef .tc main_arg4) = _
  rw [stretch1_keeps_main_arg4, first_keeps_arg4]

/-! ## After the second region -/

/-- The second region leaves the second projection of the hidden layer. -/
theorem after_second (c : Dev nD) :
    W3 m ρ c (Proc.devRef .tc main_v15) = (Second.layer (aggregate64 (m ((c : Thread nD τ).loc main_arg1)) (m ((c : Thread nD τ).loc main_arg6)) (m ((c : Thread nD τ).loc main_arg7)) (First.product (m ((c : Thread nD τ).loc main_arg0)) (m ((c : Thread nD τ).loc main_arg2))))
        (shapeCast S1x64 (m ((c : Thread nD τ).loc main_arg3)) shapeCasts_S64_S1x64) (m ((c : Thread nD τ).loc main_arg4))) := by
  refine (W3_arr m ρ c 3).trans ((Second.array (V2 m ρ) c).trans ?_)
  rw [second_finds_aggregate, second_finds_bias, second_finds_weights]

theorem second_keeps_arg1 (c : Dev nD) : W3 m ρ c (Proc.devRef .tc main_arg1) = m ((c : Thread nD τ).loc main_arg1) := by
  refine (W3_of_ne m ρ c main_arg1 (by decide)).trans ?_
  show StableHlo.after hostOps1 (W1 m ρ c) (Proc.devRef .tc main_arg1) = _
  rw [stretch1_keeps_main_arg1, first_keeps_arg1]
theorem second_keeps_arg5 (c : Dev nD) : W3 m ρ c (Proc.devRef .tc main_arg5) = m ((c : Thread nD τ).loc main_arg5) := by
  refine (W3_of_ne m ρ c main_arg5 (by decide)).trans ?_
  show StableHlo.after hostOps1 (W1 m ρ c) (Proc.devRef .tc main_arg5) = _
  rw [stretch1_keeps_main_arg5, first_keeps_arg5]
theorem second_keeps_arg6 (c : Dev nD) : W3 m ρ c (Proc.devRef .tc main_arg6) = m ((c : Thread nD τ).loc main_arg6) := by
  refine (W3_of_ne m ρ c main_arg6 (by decide)).trans ?_
  show StableHlo.after hostOps1 (W1 m ρ c) (Proc.devRef .tc main_arg6) = _
  rw [stretch1_keeps_main_arg6, first_keeps_arg6]
theorem second_keeps_arg7 (c : Dev nD) : W3 m ρ c (Proc.devRef .tc main_arg7) = m ((c : Thread nD τ).loc main_arg7) := by
  refine (W3_of_ne m ρ c main_arg7 (by decide)).trans ?_
  show StableHlo.after hostOps1 (W1 m ρ c) (Proc.devRef .tc main_arg7) = _
  rw [stretch1_keeps_main_arg7, first_keeps_arg7]

/-! ## What the last region finds, and the result -/

theorem third_finds_aggregate (c : Dev nD) :
    V4 m ρ c main_v28 = aggregate32 (m ((c : Thread nD τ).loc main_arg1)) (m ((c : Thread nD τ).loc main_arg6)) (m ((c : Thread nD τ).loc main_arg7))
      (Second.layer (aggregate64 (m ((c : Thread nD τ).loc main_arg1)) (m ((c : Thread nD τ).loc main_arg6)) (m ((c : Thread nD τ).loc main_arg7)) (First.product (m ((c : Thread nD τ).loc main_arg0)) (m ((c : Thread nD τ).loc main_arg2))))
        (shapeCast S1x64 (m ((c : Thread nD τ).loc main_arg3)) shapeCasts_S64_S1x64) (m ((c : Thread nD τ).loc main_arg4))) := by
  show StableHlo.after hostOps2 (W3 m ρ c) (Proc.devRef .tc main_v28) = _
  rw [stretch2_aggregates, second_keeps_arg1, second_keeps_arg6, second_keeps_arg7, after_second]

theorem third_finds_bias (c : Dev nD) :
    V4 m ρ c main_v29 = shapeCast S1x32 (m ((c : Thread nD τ).loc main_arg5)) shapeCasts_S32_S1x32 := by
  show StableHlo.after hostOps2 (W3 m ρ c) (Proc.devRef .tc main_v29) = _
  rw [stretch2_bias_row, second_keeps_arg5]

/-- THE RESULT ARRAY at the last boundary is `value` of the arguments as launched. -/
theorem result (c : Dev nD) :
    W5 m ρ c (Proc.devRef .tc main_v30)
      = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 2).trans ((Third.array (V4 m ρ) c).trans ?_)
  rw [third_finds_aggregate, third_finds_bias]
  rfl

end Cert.KernelIdeal.Result

end
-- ==== Proof.Same.lean ====
/-
  The reference computes the kernel's function.

  The reference's @main is, stage by stage: the product of the node features with the first weight matrix; the
  sparse aggregation of it; the first bias broadcast over the rows and added; the relu (a maximum with zero); the
  product with the second weight matrix; the sparse aggregation of that; the second bias broadcast and added. Each
  stage is matched with the kernel's:
    * a host matrix product on the extended reals is the sum over the contracted axis, which is what a region
      leaves (the products of the row blocks, put together);
    * the two programs spell the sparse aggregation with the same host operations, so the two spellings are one
      function (only the records that name the operations' dimensions are declared twice, once per program);
    * a bias broadcast from `[K]` over `[1, K]` to `[M, K]` and a bias reshaped to `[1, K]` and broadcast inside
      the body both read, at `(r, k)`, the bias's entry `k`.
  No law of arithmetic is used beyond reading both sides at an index: the two programs add and multiply the same
  extended reals in the same order, so nothing here needs the inputs to be finite.
-/
import proofs.«154001_j86122684219473_1_alg».proof.Proof.Result
import proofs.«154001_j86122684219473_1_alg».proof.Proof.Gen.ReferenceIdeal.Read
import Idealize.ShloMosaic.Lib.ValueLayout

set_option maxRecDepth 16384

noncomputable section

namespace Cert.ReferenceIdeal.Same

open Cert.ReferenceIdeal Cert.ReferenceIdeal.Read
open Idealize.ShloMosaic Idealize.ShloMosaic.ValueIdx

/-! ## The bias rows -/

/-- The first bias reshaped to a row reads, at `(0, k)`, the bias's entry `k`. -/
theorem bias_row_64 (b : FVec Ideal Cert.KernelIdeal.S64 .f32) (k : Fin 64) :
    shapeCast Cert.KernelIdeal.S1x64 b Cert.KernelIdeal.Gen.shapeCasts_S64_S1x64 (Cert.KernelIdeal.Body.biasAt1 k) = b (ix1 k) := by
  have e : Cert.KernelIdeal.Body.biasAt1 k = ix2 (0 : Fin 1) k := funext fun a => by
    match a with
    | ⟨0, _⟩ => rfl
    | ⟨1, _⟩ => rfl
  rw [e]
  exact shapeCast_a_1a_apply b Cert.KernelIdeal.Gen.shapeCasts_S64_S1x64 0 k

/-- The second bias reshaped to a row reads, under column `c`, the bias's entry `c`. -/
theorem bias_row_32 (b : FVec Ideal Cert.KernelIdeal.S32 .f32) (i : Cert.KernelIdeal.S100000x32.Idx) :
    shapeCast Cert.KernelIdeal.S1x32 b Cert.KernelIdeal.Gen.shapeCasts_S32_S1x32 (Cert.KernelIdeal.Third.biasOf i) = b (ix1 ⟨(i 1).val, (i 1).isLt⟩) := by
  have e : Cert.KernelIdeal.Third.biasOf i = ix2 (0 : Fin 1) (⟨(i 1).val, (i 1).isLt⟩ : Fin 32) := funext fun a => by
    match a with
    | ⟨0, _⟩ => rfl
    | ⟨1, _⟩ => rfl
  rw [e]
  exact shapeCast_a_1a_apply b Cert.KernelIdeal.Gen.shapeCasts_S32_S1x32 0 _

/-! ## The first layer -/

/-- The reference's first matrix product is the product the first region leaves. -/
theorem first_projection (x0 : (⟨S100000x128, .f32⟩ : BufTy).Contents (Elt Ideal)) (x2 : (⟨S128x64, .f32⟩ : BufTy).Contents (Elt Ideal)) :
    val_main_v0 (F := Ideal) x0 x2 = Cert.KernelIdeal.First.product x0 x2 := by
  funext i
  rw [val_main_v0_apply]
  unfold Cert.KernelIdeal.First.product
  refine Finset.sum_congr rfl fun k _ => ?_
  have el : lidx_main_v0 i k = Cert.KernelIdeal.First.rowOf i k := funext fun a => Fin.ext (by
    match a with
    | ⟨0, _⟩ => rfl
    | ⟨1, _⟩ => rfl)
  have er : ridx_main_v0 i k = Cert.KernelIdeal.First.colOf i k := funext fun a => Fin.ext (by
    match a with
    | ⟨0, _⟩ => rfl
    | ⟨1, _⟩ => rfl)
  rw [el, er]

/-- The reference's first sparse aggregation is the kernel's, of the same product. -/
theorem first_aggregation (x0 : (⟨S100000x128, .f32⟩ : BufTy).Contents (Elt Ideal)) (x1 : (⟨S1600000, .f32⟩ : BufTy).Contents (Elt Ideal)) (x2 : (⟨S128x64, .f32⟩ : BufTy).Contents (Elt Ideal)) (x6 x7 : (⟨S1600000, .i32⟩ : BufTy).Contents (Elt Ideal)) :
    val_main_v13 (F := Ideal) x0 x1 x2 x6 x7 = Cert.KernelIdeal.Host.aggregate64 x1 x6 x7 (Cert.KernelIdeal.First.product x0 x2) :=
  (show val_main_v13 (F := Ideal) x0 x1 x2 x6 x7 = Cert.KernelIdeal.Host.aggregate64 x1 x6 x7 (val_main_v0 (F := Ideal) x0 x2) from rfl).trans
    (by rw [first_projection])

/-! ## The second layer -/

/-- The reference's bias add, relu and second matrix product are what the second region leaves. -/
theorem second_projection (x0 : (⟨S100000x128, .f32⟩ : BufTy).Contents (Elt Ideal)) (x1 : (⟨S1600000, .f32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x6 x7 : (⟨S1600000, .i32⟩ : BufTy).Contents (Elt Ideal)) :
    val_main_v18 (F := Ideal) x0 x1 x2 x3 x4 x6 x7
      = (Cert.KernelIdeal.Second.layer (Cert.KernelIdeal.Host.aggregate64 x1 x6 x7 (Cert.KernelIdeal.First.product x0 x2))
        (shapeCast Cert.KernelIdeal.S1x64 x3 Cert.KernelIdeal.Gen.shapeCasts_S64_S1x64) x4) := by
  funext i
  rw [val_main_v18_apply]
  unfold Cert.KernelIdeal.Second.layer
  refine Finset.sum_congr rfl fun k _ => ?_
  rw [val_main_v17_apply, val_main_v16_apply, first_aggregation, val_main_v15_apply, val_main_v14_apply,
    val_main_call0_v0_apply, val_main_call0_cst_apply, bias_row_64]
  have eb : idx_main_v14 (idx_main_v15 (lidx_main_v18 i k)) = ix1 k := funext fun a => by
    match a with
    | ⟨0, _⟩ => rfl
  have el : lidx_main_v18 i k = Cert.KernelIdeal.Second.rowOf i k := funext fun a => Fin.ext (by
    match a with
    | ⟨0, _⟩ => rfl
    | ⟨1, _⟩ => rfl)
  have er : ridx_main_v18 i k = Cert.KernelIdeal.Second.colOf i k := funext fun a => Fin.ext (by
    match a with
    | ⟨0, _⟩ => rfl
    | ⟨1, _⟩ => rfl)
  rw [eb, el, er]
  rfl

/-- The reference's second sparse aggregation is the kernel's, of the same projection. -/
theorem second_aggregation (x0 : (⟨S100000x128, .f32⟩ : BufTy).Contents (Elt Ideal)) (x1 : (⟨S1600000, .f32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x6 x7 : (⟨S1600000, .i32⟩ : BufTy).Contents (Elt Ideal)) :
    val_main_v31 (F := Ideal) x0 x1 x2 x3 x4 x6 x7
      = Cert.KernelIdeal.Host.aggregate32 x1 x6 x7
      (Cert.KernelIdeal.Second.layer (Cert.KernelIdeal.Host.aggregate64 x1 x6 x7 (Cert.KernelIdeal.First.product x0 x2))
        (shapeCast Cert.KernelIdeal.S1x64 x3 Cert.KernelIdeal.Gen.shapeCasts_S64_S1x64) x4) :=
  (show val_main_v31 (F := Ideal) x0 x1 x2 x3 x4 x6 x7
      = Cert.KernelIdeal.Host.aggregate32 x1 x6 x7 (val_main_v18 (F := Ideal) x0 x1 x2 x3 x4 x6 x7) from rfl).trans
    (by rw [second_projection])

/-! ## The result -/

/-- THE REFERENCE'S RESULT is the kernel's function `value` of the same arguments. -/
theorem reference_is_value (x0 : (⟨S100000x128, .f32⟩ : BufTy).Contents (Elt Ideal)) (x1 : (⟨S1600000, .f32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 x7 : (⟨S1600000, .i32⟩ : BufTy).Contents (Elt Ideal)) :
    val_main_v34 (F := Ideal) x0 x1 x2 x3 x4 x5 x6 x7 = Cert.KernelIdeal.Result.value x0 x1 x2 x3 x4 x5 x6 x7 := by
  funext i
  rw [val_main_v34_apply, second_aggregation, val_main_v33_apply, val_main_v32_apply]
  simp only [Cert.KernelIdeal.Result.value, Cert.KernelIdeal.Third.shifted]
  rw [bias_row_32]
  have eb : idx_main_v32 (idx_main_v33 i) = ix1 (⟨(i 1).val, (i 1).isLt⟩ : Fin 32) := funext fun a => by
    match a with
    | ⟨0, _⟩ => rfl
  rw [eb]
  rfl

end Cert.ReferenceIdeal.Same

end
-- ==== Proof.lean ====
/-
  Two graph-convolution layers over 100000 nodes and 1600000 weighted edges, as three tiled kernels with the sparse
  aggregations between them on the host, against the same two layers written with plain array operations.

  Both programs compute, on the extended reals,
      out = agg (relu (agg (x · W1) + b1) · W2) + b2,
  where `agg d` adds, into row `dst e` of a zero array, row `src e` of `d` scaled by the edge weight `vals e`.
  The kernel rounds the operands of its two matrix products to a shorter float format first, which is the identity
  on the extended reals; it computes each product ten thousand rows at a time, and a product of a block of rows is
  that block of rows of the product; it adds each bias inside a kernel body, to a row block, where the reference
  adds it to the whole array. The aggregations are the same host operations in both programs. So the two results
  are equal entry by entry, whatever the inputs — no step regroups a sum or moves a factor across one, and the
  precondition that the float inputs are finite is never opened.

  The modules: `KernelRun` (the kernel's run with the result array named), `BodyAt` (what each body stores, at an
  index), `FirstArray` / `SecondArray` / `ThirdArray` (what each region leaves in its output array),
  `FirstStretch` / `SecondStretch` (what the host operations between the regions leave), `Result` (the result as
  one function `value` of the arguments), `Same` (the reference's stages compute `value`).
-/
import proofs.«154001_j86122684219473_1_alg».proof.Defs
import proofs.«154001_j86122684219473_1_alg».proof.Proof.Gen.Kernel
import proofs.«154001_j86122684219473_1_alg».proof.Proof.Gen.Kernel.Skeleton
import proofs.«154001_j86122684219473_1_alg».proof.Proof.Gen.Kernel.Launch
import proofs.«154001_j86122684219473_1_alg».proof.Proof.Gen.Kernel.Points
import proofs.«154001_j86122684219473_1_alg».proof.Proof.Gen.Kernel.Frame
import proofs.«154001_j86122684219473_1_alg».proof.Proof.Gen.KernelIdeal
import proofs.«154001_j86122684219473_1_alg».proof.Proof.Gen.KernelIdeal.Skeleton
import proofs.«154001_j86122684219473_1_alg».proof.Proof.Gen.KernelIdeal.Launch
import proofs.«154001_j86122684219473_1_alg».proof.Proof.Gen.KernelIdeal.Points
import proofs.«154001_j86122684219473_1_alg».proof.Proof.Gen.KernelIdeal.Frame
import proofs.«154001_j86122684219473_1_alg».proof.Proof.Gen.ReferenceIdeal
import proofs.«154001_j86122684219473_1_alg».proof.Proof.Gen.ReferenceIdeal.Run
import proofs.«154001_j86122684219473_1_alg».proof.Proof.Gen.ReferenceIdeal.Read
import proofs.«154001_j86122684219473_1_alg».proof.Proof.Gen.Pre_finite_inputs
import proofs.«154001_j86122684219473_1_alg».proof.Proof.KernelRun
import proofs.«154001_j86122684219473_1_alg».proof.Proof.Result
import proofs.«154001_j86122684219473_1_alg».proof.Proof.Same
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array ends at `value` of its arguments, and the reference's at its
    stages' composed term of arguments that agree with the kernel's, which is `value` of them too. -/
theorem algebraic : Cert.algebraic_KernelIdeal_ReferenceIdeal := by
  intro m ρ m' ρ' _ hagree
  refine ⟨fun c => Cert.KernelIdeal.Result.value (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    exact (Cert.ReferenceIdeal.Read.val_main_v34_eq _ _ _ _ _ _ _ _).trans
      (Cert.ReferenceIdeal.Same.reference_is_value _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
